-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S1024x512 .f32) (main_arg1 : FVec F S512x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S1024x512 : Shape := ⟨2, ![1024, 512]⟩
abbrev S512x512 : Shape := ⟨2, ![512, 512]⟩
abbrev S64x128 : Shape := ⟨2, ![64, 128]⟩
abbrev S128x512 : Shape := ⟨2, ![128, 512]⟩
abbrev S64x512 : Shape := ⟨2, ![64, 512]⟩
abbrev S64x128x1 : Shape := ⟨3, ![64, 128, 1]⟩
abbrev S1x128x512 : Shape := ⟨3, ![1, 128, 512]⟩
abbrev S64x128x512 : Shape := ⟨3, ![64, 128, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512, .f32⟩
  | .local _ .vmem, ⟨0, _⟩ => ⟨S64x128, .f32⟩
  | .local _ .vmem, ⟨1, _⟩ => ⟨S64x128, .f32⟩
  | .local _ .vmem, ⟨2, _⟩ => ⟨S128x512, .f32⟩
  | .local _ .vmem, ⟨3, _⟩ => ⟨S128x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x128_S64x128_0_0 : ∀ a, (![0, 0] : Fin 2 → Nat) a + S64x128.size a ≤ S64x128.size a
  h_S64x128 : 0 < S64x128.numel
  inb_S128x512_S128x512_0_0 : ∀ a, (![0, 0] : Fin 2 → Nat) a + S128x512.size a ≤ S128x512.size a
  h_S128x512 : 0 < S128x512.numel
  shapeCasts_S64x128_S64x128x1 : S64x128.ShapeCasts S64x128x1
  shapeCasts_S128x512_S1x128x512 : S128x512.ShapeCasts S1x128x512
  broadcasts_S64x128x1_S64x128x512 : S64x128x1.Broadcasts S64x128x512
  broadcasts_S1x128x512_S64x128x512 : S1x128x512.Broadcasts S64x128x512
  reduces_S64x128x512_S64x512 : S64x128x512.Reduces [1] S64x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S1024x512.size a
  hwx0_0 : ∀ i : grid0.Coords, EltTy.bits .f32 = 32 ∨ (Rect.block (s := S1024x512) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S1024x512.size a
  hwx0_2 : ∀ i : grid0.Coords, EltTy.bits .f32 = 32 ∨ (Rect.block (s := S1024x512) S64x512.size (cc0_transform_2 i) (hinb0_2 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x512 : Shape := ⟨2, ![1024, 512]⟩
abbrev S512x512 : Shape := ⟨2, ![512, 512]⟩
abbrev S1024x512x1 : Shape := ⟨3, ![1024, 512, 1]⟩
abbrev S1x512x512 : Shape := ⟨3, ![1, 512, 512]⟩
abbrev S1024x512x512 : Shape := ⟨3, ![1024, 512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512x1, .f32⟩
  | .hbm, ⟨3, _⟩ => ⟨S1x512x512, .f32⟩
  | .hbm, ⟨4, _⟩ => ⟨S1024x512x512, .f32⟩
  | .hbm, ⟨5, _⟩ => ⟨S1024x512x512, .f32⟩
  | .hbm, ⟨6, _⟩ => ⟨S1024x512x512, .f32⟩
  | .hbm, ⟨7, _⟩ => ⟨S_, .f32⟩
  | .hbm, ⟨8, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S1024x512_S1024x512x1_0_1 : S1024x512.BroadcastsInDim S1024x512x1 (![0, 1] : Fin 2 → Fin S1024x512x1.rank)
  bcast_S512x512_S1x512x512_1_2 : S512x512.BroadcastsInDim S1x512x512 (![1, 2] : Fin 2 → Fin S1x512x512.rank)
  bcast_S1024x512x1_S1024x512x512_0_1_2 : S1024x512x1.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d1 : S1024x512x512.ReducesTo [1] S1024x512
  h_S_ : 0 < S_.numel

variable [Facts₀]

class Facts : Prop extends Facts₀ where

variable [Facts]
-- ==== Proof.Pieces.lean ====
/-
  What each kind of grid point leaves behind, as values.

  A run of four points shares one accumulator. Its first point stores minus infinity into the accumulator and then
  the step over that; the two middle points and the last store the step over what the point before left; the last
  point also copies the new accumulator into the output block. Each store covers its whole buffer, so the buffer
  afterwards holds exactly the last value stored, and a load through the whole buffer reads exactly its contents.
-/
import proofs.«152698_j80049600463150_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle point leaves in the accumulator the step over what the point before left. -/
theorem scratch_middle (c : Dev nD) (i : grid0.Coords) (arg2 : Memref sig .tc .vmem S64x128 .f32) (harg2 : arg2.IsWhole) (arg3 : Memref sig .tc .vmem S128x512 .f32) (harg3 : arg3.IsWhole) (arg4 : Memref sig .tc .vmem S64x512 .f32) (harg4 : arg4.IsWhole) (arg5 : Memref sig .tc .vmem S64x512 .f32) (harg5 : arg5.IsWhole) (hc0 : ¬cond0_0 i) (hc1 : ¬cond0_1 i)
    (x0 : Vec F S64x128 .f32) (x1 : Vec F S128x512 .f32) (xs0 : Vec F S64x512 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread,
    View.ld_unit_zero (S := S64x128) hz, View.ld_unit_zero (S := S128x512) hz, View.ld_unit_zero (S := S64x512) hz]

/-- The last point of a run leaves the same in the accumulator, -/
theorem scratch_last (c : Dev nD) (i : grid0.Coords) (arg2 : Memref sig .tc .vmem S64x128 .f32) (harg2 : arg2.IsWhole) (arg3 : Memref sig .tc .vmem S128x512 .f32) (harg3 : arg3.IsWhole) (arg4 : Memref sig .tc .vmem S64x512 .f32) (harg4 : arg4.IsWhole) (arg5 : Memref sig .tc .vmem S64x512 .f32) (harg5 : arg5.IsWhole) (hc0 : ¬cond0_0 i) (hc1 : cond0_1 i)
    (x0 : Vec F S64x128 .f32) (x1 : Vec F S128x512 .f32) (xs0 : Vec F S64x512 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S64x128) hz, View.ld_unit_zero (S := S128x512) hz, View.ld_unit_zero (S := S64x512) hz]

/-- and copies it into the output block. -/
theorem out_last (c : Dev nD) (i : grid0.Coords) (arg2 : Memref sig .tc .vmem S64x128 .f32) (harg2 : arg2.IsWhole) (arg3 : Memref sig .tc .vmem S128x512 .f32) (harg3 : arg3.IsWhole) (arg4 : Memref sig .tc .vmem S64x512 .f32) (harg4 : arg4.IsWhole) (arg5 : Memref sig .tc .vmem S64x512 .f32) (harg5 : arg5.IsWhole) (hc0 : ¬cond0_0 i) (hc1 : cond0_1 i)
    (x0 : Vec F S64x128 .f32) (x1 : Vec F S128x512 .f32) (xs0 : Vec F S64x512 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S64x512) _ hz]
  simp only [View.readAt_eq_ld, harg2.read_unread, harg3.read_unread, harg5.read_unread,
    View.ld_unit_zero (S := S64x128) hz, View.ld_unit_zero (S := S128x512) hz, View.ld_unit_zero (S := S64x512) hz]

/-- The first point of a run stores minus infinity and then the step over it. -/
theorem scratch_first (c : Dev nD) (i : grid0.Coords) (arg2 : Memref sig .tc .vmem S64x128 .f32) (harg2 : arg2.IsWhole) (arg3 : Memref sig .tc .vmem S128x512 .f32) (harg3 : arg3.IsWhole) (arg4 : Memref sig .tc .vmem S64x512 .f32) (harg4 : arg4.IsWhole) (arg5 : Memref sig .tc .vmem S64x512 .f32) (harg5 : arg5.IsWhole) (hc0 : cond0_0 i) (hc1 : ¬cond0_1 i)
    (x0 : Vec F S64x128 .f32) (x1 : Vec F S128x512 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S64x512) hz, View.readCov_unit_zero (S := S64x512) _ hz]
  simp only [View.readAt_eq_ld, harg2.read_unread, harg3.read_unread, harg5.read_unread,
    View.ld_unit_zero (S := S64x128) hz, View.ld_unit_zero (S := S128x512) hz, View.ld_unit_zero (S := S64x512) hz]

end Cert.KernelIdeal.Pieces

end
-- ==== Proof.Spec.lean ====
/-
  The max-min composition of two matrices over the extended reals, and the one law the certificate rests on.

  For X of shape [1024, 512] and W of shape [512, 512] the result at (b, o) is the supremum over i of
  min (X b i) (W i o). A supremum over the 512 values of i may be taken 128 at a time: writing upto f n for the
  supremum of f over the indices below n, upto f 0 is the least element, upto f 512 is the whole supremum, and
  taking 128 more indices in gives upto f (n + 128) = max (upto f n) (sup over k < 128 of f (n + k)). Only that
  max is the join of a lattice with a least element is used: no finiteness of any entry.
-/
import Idealize.ShloMosaic.PureOps.Ideal
import Idealize.ShloMosaic.PureOps.Ideal.Laws
import Idealize.ShloMosaic.Lib.ValueIdx

noncomputable section

namespace Cert.MaxMin

open Idealize.ShloMosaic Idealize.ShloMosaic.ValueIdx

/-- The word 0xFF800000 read as an extended real is minus infinity, the least element. -/
theorem negInf_eq_bot : Ideal.ofBits .f32 0xFF800000#32 = (⊥ : EReal) := by
  simp [Ideal.ofBits, Ideal.ieee]

/-- A fold of max started at the least element is the supremum. -/
theorem fold_max_bot {ι : Type} (s : Finset ι) (f : ι → EReal) : s.fold max ⊥ f = s.sup f := rfl

/-- The supremum of f over the indices below n. -/
def upto (f : Fin 512 → EReal) (n : ℕ) : EReal :=
  (Finset.univ.filter fun k : Fin 512 => k.val < n).sup f

theorem upto_zero (f : Fin 512 → EReal) : upto f 0 = ⊥ := by
  unfold upto
  rw [Finset.filter_false_of_mem (fun k _ => Nat.not_lt_zero _), Finset.sup_empty]

theorem upto_all (f : Fin 512 → EReal) : upto f 512 = Finset.univ.sup f := by
  unfold upto
  rw [Finset.filter_true_of_mem (fun k _ => k.isLt)]

/-- Taking the next 128 indices in: the supremum below n + 128 is the larger of the supremum below n and the
    supremum over the 128 indices from n on. -/
theorem upto_add (f : Fin 512 → EReal) (n : ℕ) (hn : n + 128 ≤ 512) :
    upto f (n + 128) = max (upto f n) (Finset.univ.sup fun k : Fin 128 => f ⟨n + k.val, by have := k.isLt; omega⟩) := by
  unfold upto
  apply le_antisymm
  · refine Finset.sup_le fun k hk => ?_
    have hk' : k.val < n + 128 := (Finset.mem_filter.mp hk).2
    by_cases h : k.val < n
    · exact le_max_of_le_left (Finset.le_sup (f := f) (Finset.mem_filter.mpr ⟨Finset.mem_univ _, h⟩))
    · refine le_max_of_le_right ?_
      have e : k = ⟨n + (⟨k.val - n, by omega⟩ : Fin 128).val, by have := k.isLt; show n + (k.val - n) < 512; omega⟩ :=
        Fin.ext (by show k.val = n + (k.val - n); omega)
      rw [e]
      exact Finset.le_sup (f := fun j : Fin 128 => f ⟨n + j.val, by have := j.isLt; omega⟩) (Finset.mem_univ _)
  · refine max_le (Finset.sup_mono fun k hk => ?_) (Finset.sup_le fun k _ => ?_)
    · have := (Finset.mem_filter.mp hk).2
      exact Finset.mem_filter.mpr ⟨Finset.mem_univ _, by omega⟩
    · exact Finset.le_sup (f := f) (Finset.mem_filter.mpr ⟨Finset.mem_univ _, by have := k.isLt; show n + k.val < n + 128; omega⟩)

/-- One term of the composition: min (X row i) (W i o). -/
def term (X : (⟨2, ![1024, 512]⟩ : Shape).Idx → EReal) (W : (⟨2, ![512, 512]⟩ : Shape).Idx → EReal)
    (row : Fin 1024) (o : Fin 512) (i : Fin 512) : EReal :=
  min (X (ix2 row i)) (W (ix2 i o))

/-- The max-min composition: at (row, o) the supremum over i of min (X row i) (W i o). -/
def maxmin (X : (⟨2, ![1024, 512]⟩ : Shape).Idx → EReal) (W : (⟨2, ![512, 512]⟩ : Shape).Idx → EReal) :
    (⟨2, ![1024, 512]⟩ : Shape).Idx → EReal :=
  fun j => Finset.univ.sup (term X W (j 0) (j 1))

theorem maxmin_apply (X : (⟨2, ![1024, 512]⟩ : Shape).Idx → EReal) (W : (⟨2, ![512, 512]⟩ : Shape).Idx → EReal)
    (row : Fin 1024) (o : Fin 512) : maxmin X W (ix2 row o) = Finset.univ.sup (term X W row o) := rfl

end Cert.MaxMin

end
-- ==== Proof.Payload.lean ====
/-
  What one grid point computes, entry by entry.

  At a point the body holds a [64, 128] block x of X, a [128, 512] block w of W and the [64, 512] accumulator acc.
  It forms the [64, 128, 512] array whose entry at (r, k, o) is min (x r k) (w k o) (x given a trailing unit axis,
  w a leading one, both broadcast), reduces it with max from minus infinity over the middle axis, and stores
  max acc of that. So the new accumulator at (r, o) is
      max (acc r o) (sup over k < 128 of min (x r k) (w k o)),
  and the value the first point of a run stores before that, minus infinity everywhere, is the least element.
-/
import proofs.«152698_j80049600463150_1_alg».proof.Proof.Gen.KernelIdeal.Skeleton
import proofs.«152698_j80049600463150_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen
open Idealize.ShloMosaic Idealize.ShloMosaic.ValueIdx Cert.MaxMin

/-- The block x with a trailing unit axis reads x: (r, k, 0) and (r, k) have the same row-major position. -/
theorem trailing_unit_apply (x : FVec Ideal S64x128 .f32) (r : Fin 64) (k : Fin 128) (z : Fin 1) :
    shapeCast S64x128x1 x shapeCasts_S64x128_S64x128x1 (ix3 r k z) = x (ix2 r k) :=
  shapeCast_apply x shapeCasts_S64x128_S64x128x1 (ix3 r k z) (ix2 r k) (by
    have hz : z.val = 0 := by omega
    rw [Shape.rowMajor_val_three, Shape.rowMajor_val_two]
    show r.val * 128 + k.val = (r.val * 128 + k.val) * 1 + z.val
    omega)

/-- Broadcast along the last axis, the block x reads x at (r, k) whatever o is. -/
theorem x_broadcast_apply (x : FVec Ideal S64x128 .f32) (r : Fin 64) (k : Fin 128) (o : Fin 512) :
    broadcastTo S64x128x512 (shapeCast S64x128x1 x shapeCasts_S64x128_S64x128x1) broadcasts_S64x128x1_S64x128x512 (ix3 r k o)
      = x (ix2 r k) := by
  refine (broadcastTo_apply _ broadcasts_S64x128x1_S64x128x512 (ix3 r k o) (ix3 r k (0 : Fin 1)) fun a => ?_).trans
    (trailing_unit_apply x r k 0)
  match a with
  | ⟨0, _⟩ => rfl
  | ⟨1, _⟩ => rfl
  | ⟨2, _⟩ => rfl

/-- Broadcast along the first axis, the block w reads w at (k, o) whatever r is. -/
theorem w_broadcast_apply (w : FVec Ideal S128x512 .f32) (r : Fin 64) (k : Fin 128) (o : Fin 512) :
    broadcastTo S64x128x512 (shapeCast S1x128x512 w shapeCasts_S128x512_S1x128x512) broadcasts_S1x128x512_S64x128x512 (ix3 r k o)
      = w (ix2 k o) := by
  refine (broadcastTo_apply _ broadcasts_S1x128x512_S64x128x512 (ix3 r k o) (ix3 (0 : Fin 1) k o) fun a => ?_).trans
    (shapeCast_ab_1ab_apply w shapeCasts_S128x512_S1x128x512 0 k o)
  match a with
  | ⟨0, _⟩ => rfl
  | ⟨1, _⟩ => rfl
  | ⟨2, _⟩ => rfl

/-- Over the result index (r, o), the source index with k on the reduced axis is (r, k, o). -/
theorem lift_eq (r : Fin 64) (k : Fin 128) (o : Fin 512) :
    reduces_S64x128x512_S64x512.lift (ix2 r o) k = ix3 r k o :=
  funext fun a => Fin.ext (by match a with | ⟨0, _⟩ => rfl | ⟨1, _⟩ => rfl | ⟨2, _⟩ => rfl)

/-- The value the first point of a run stores first is the least element at every entry. -/
theorem reset_apply (j : S64x512.Idx) : k0_pay1 (F := Ideal) j = (⊥ : EReal) := by
  unfold k0_pay1
  rw [shapeCast_self]
  exact negInf_eq_bot

/-- A reduction with max from minus infinity over the middle axis: at (r, o) the supremum over k of the source at
    (r, k, o). -/
theorem rowmax_apply (src : FVec Ideal S64x128x512 .f32) (r : Fin 64) (o : Fin 512) :
    multiReduction .maximumf [1] S64x512 src 0xFF800000#32 reduces_S64x128x512_S64x512 (.inl rfl) rfl (ix2 r o)
      = Finset.univ.sup fun k : Fin 128 => src (ix3 r k o) := by
  refine (Ideal.multiReduction_maximumf_single src 0xFF800000#32 reduces_S64x128x512_S64x512 (.inl rfl) rfl (ix2 r o)).trans ?_
  have hf : (src ∘ reduces_S64x128x512_S64x512.lift (ix2 r o)) = fun k : Fin 128 => src (ix3 r k o) :=
    funext fun (k : Fin 128) => congrArg src (lift_eq r k o)
  rw [hf]
  show Finset.fold max (Ideal.ofBits .f32 0xFF800000#32) _ _ = _
  rw [negInf_eq_bot]
  rfl

/-- The step as one expression of the three blocks. -/
theorem step_eq (x : FVec Ideal S64x128 .f32) (w : FVec Ideal S128x512 .f32) (acc : FVec Ideal S64x512 .f32) :
    k0_pay2 (F := Ideal) x w acc
      = maximumf acc (multiReduction .maximumf [1] S64x512
          (minimumf
            (broadcastTo S64x128x512 (shapeCast S64x128x1 x shapeCasts_S64x128_S64x128x1) broadcasts_S64x128x1_S64x128x512)
            (broadcastTo S64x128x512 (shapeCast S1x128x512 w shapeCasts_S128x512_S1x128x512) broadcasts_S1x128x512_S64x128x512))
          0xFF800000#32 reduces_S64x128x512_S64x512 (.inl rfl) rfl) := by
  unfold k0_pay2
  exact shapeCast_self _ _

/-- The accumulator a point leaves: at (r, o) the larger of what it held and the supremum over the block's 128
    columns of min (x r k) (w k o). -/
theorem step_apply (x : FVec Ideal S64x128 .f32) (w : FVec Ideal S128x512 .f32) (acc : FVec Ideal S64x512 .f32)
    (r : Fin 64) (o : Fin 512) :
    k0_pay2 (F := Ideal) x w acc (ix2 r o)
      = max (acc (ix2 r o)) (Finset.univ.sup fun k : Fin 128 => min (x (ix2 r k)) (w (ix2 k o))) := by
  rw [step_eq, maximumf_apply, rowmax_apply]
  refine congrArg (max (acc (ix2 r o))) (congrArg (Finset.sup Finset.univ) (funext fun k => ?_))
  exact (minimumf_apply _ _ (ix3 r k o)).trans (congrArg₂ min (x_broadcast_apply x r k o) (w_broadcast_apply w r k o))

/-- One point's step, against the whole arrays. If the block x holds row "row" of X at columns n .. n + 127, the block
    w holds rows n .. n + 127 of W, and the accumulator holds the supremum below n, then the new accumulator holds the
    supremum below n + 128. -/
theorem step_point (X : S1024x512.Idx → EReal) (W : S512x512.Idx → EReal)
    (x : FVec Ideal S64x128 .f32) (w : FVec Ideal S128x512 .f32) (acc : FVec Ideal S64x512 .f32)
    (row : Fin 1024) (r : Fin 64) (o : Fin 512) (n : ℕ) (hn : n + 128 ≤ 512)
    (hx : ∀ k : Fin 128, x (ix2 r k) = X (ix2 row ⟨n + k.val, by have := k.isLt; omega⟩))
    (hw : ∀ k : Fin 128, w (ix2 k o) = W (ix2 ⟨n + k.val, by have := k.isLt; omega⟩ o))
    (hacc : acc (ix2 r o) = upto (term X W row o) n) :
    k0_pay2 (F := Ideal) x w acc (ix2 r o) = upto (term X W row o) (n + 128) := by
  rw [step_apply, hacc, upto_add _ n hn]
  refine congrArg (max _) (congrArg (Finset.sup Finset.univ) (funext fun k => ?_))
  show min (x (ix2 r k)) (w (ix2 k o)) = min _ _
  rw [hx k, hw k]

end Cert.KernelIdeal.Pay

end
-- ==== Proof.Blocks.lean ====
/-
  Where a grid point's blocks sit in the arrays.

  The grid has 16 x 4 points; point t is chunk t % 4 of batch tile t / 4. Its block of X is rows 64 (t / 4) ..
  and columns 128 (t % 4) ..; its block of W is rows 128 (t % 4) .. and all 512 columns; its block of the output is
  rows 64 (t / 4) .. and all 512 columns. A block's coordinate in its array is always the block index times the
  block's extent plus the coordinate inside the block.
-/
import proofs.«152698_j80049600463150_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The three block index maps, decided once over the grid. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- The point's block of X at (r, k) is X at (64 (t / 4) + r, 128 (t % 4) + k). -/
theorem xblk_apply (c : Dev nD) (t : Fin cfg0.N) (r : Fin 64) (k : Fin 128) (row : Fin 1024) (col : Fin 512)
    (hrow : row.val = 64 * (t.val / 4) + r.val) (hcol : col.val = 128 * (t.val % 4) + k.val) :
    (iblk m c 0 t : Vec F S64x128 .f32) (ix2 r k) = V m c main_arg0 (ix2 row col) := by
  obtain ⟨e0, e1, -⟩ := idx_facts t
  unfold iblk
  rw [View.read_apply]
  show V m c main_arg0 (((cfg0.win 0).blk t).view.emb (ix2 r k)) = V m c main_arg0 (ix2 row col)
  refine congrArg (V m c main_arg0) (funext fun a => Fin.ext ?_)
  match a with
  | ⟨0, _⟩ => show win0_0.index t (0 : Fin 2) * 64 + 1 * r.val = row.val; omega
  | ⟨1, _⟩ => show win0_0.index t (1 : Fin 2) * 128 + 1 * k.val = col.val; omega

/-- The point's block of W at (k, o) is W at (128 (t % 4) + k, o). -/
theorem wblk_apply (c : Dev nD) (t : Fin cfg0.N) (k : Fin 128) (o : Fin 512) (col : Fin 512)
    (hcol : col.val = 128 * (t.val % 4) + k.val) :
    (iblk m c 1 t : Vec F S128x512 .f32) (ix2 k o) = V m c main_arg1 (ix2 col o) := by
  obtain ⟨-, -, e2, e3, -⟩ := idx_facts t
  unfold iblk
  rw [View.read_apply]
  show V m c main_arg1 (((cfg0.win 1).blk t).view.emb (ix2 k o)) = V m c main_arg1 (ix2 col o)
  refine congrArg (V m c main_arg1) (funext fun a => Fin.ext ?_)
  match a with
  | ⟨0, _⟩ => show win0_1.index t (0 : Fin 2) * 128 + 1 * k.val = col.val; omega
  | ⟨1, _⟩ => show win0_1.index t (1 : Fin 2) * 512 + 1 * o.val = o.val; omega

end Cert.KernelIdeal.Blocks

end
-- ==== Proof.Acc.lean ====
/-
  What the accumulator holds after each grid point, and what the last point of a run writes out.

  Points 4 b, 4 b + 1, 4 b + 2, 4 b + 3 are one run: batch tile b against the four 128-column chunks of X (the four
  128-row chunks of W). By induction on the point, after point n the accumulator holds at (r, o) the supremum of
  min (X row i) (W i o) over the columns i below 128 (n % 4) + 128, where row = 64 (n / 4) + r: the first point of a
  run starts from minus infinity, the least element, and each later point takes 128 more columns in. After the last
  point of a run that is the supremum over all 512 columns, the max-min composition at (row, o), and that point
  copies the accumulator into the output block.
-/
import proofs.«152698_j80049600463150_1_alg».proof.Proof.Pieces
import proofs.«152698_j80049600463150_1_alg».proof.Proof.Payload
import proofs.«152698_j80049600463150_1_alg».proof.Proof.Blocks

noncomputable section

namespace Cert.KernelIdeal.Acc

open Cert.KernelIdeal Cert.KernelIdeal.Gen
open Idealize.ShloMosaic Idealize.ShloMosaic.TcCoe Idealize.ShloMosaic.ValueIdx Idealize.SL.Sem Cert.MaxMin

variable (m : (ℓ : Loc nD τ sig) → Buf (Elt Ideal) ℓ)

/-- The two argument arrays as the region finds them. -/
abbrev X (c : Dev nD) : S1024x512.Idx → EReal := V m c main_arg0
abbrev W (c : Dev nD) : S512x512.Idx → EReal := V m c main_arg1

/-- The first point of a run leaves the step over minus infinity. -/
theorem acc_first (c : Dev nD) (t : Fin cfg0.N) (h0 : t.val % 4 = 0) :
    (outsAt0 m c t.val t.isLt).2 = k0_pay2 (F := Ideal) (iblk m c 0 t) (iblk m c 1 t) (k0_pay1 (F := Ideal)) := by
  have h1 : ¬t.val % 4 = 3 := by omega
  rw [outsAt0_A m c t h0 h1]
  dsimp only
  exact Pieces.scratch_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- Every other point leaves the step over what the point before left. -/
theorem acc_later (c : Dev nD) (t : Fin cfg0.N) (h0 : ¬t.val % 4 = 0) :
    (outsAt0 m c t.val t.isLt).2
      = k0_pay2 (F := Ideal) (iblk m c 0 t) (iblk m c 1 t)
          (outsAt0 m c (t.val - 1) (Nat.lt_of_le_of_lt (Nat.sub_le _ _) t.isLt)).2 := by
  by_cases h1 : t.val % 4 = 3
  · rw [outsAt0_C m c t h0 h1]
    dsimp only
    exact Pieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact Pieces.scratch_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- The last point of a run leaves in the output block what it leaves in the accumulator. -/
theorem out_last (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm

/-- One point's step against the whole arrays: from the supremum below 128 (t % 4) in the accumulator to the supremum
    below 128 (t % 4) + 128. -/
theorem step_at (c : Dev nD) (t : Fin cfg0.N) (acc : FVec Ideal S64x512 .f32) (r : Fin 64) (o : Fin 512) (row : Fin 1024)
    (hrow : row.val = 64 * (t.val / 4) + r.val)
    (hacc : acc (ix2 r o) = upto (term (X m c) (W m c) row o) (128 * (t.val % 4))) :
    k0_pay2 (F := Ideal) (iblk m c 0 t) (iblk m c 1 t) acc (ix2 r o)
      = upto (term (X m c) (W m c) row o) (128 * (t.val % 4) + 128) :=
  Pay.step_point (X m c) (W m c) (iblk m c 0 t) (iblk m c 1 t) acc row r o (128 * (t.val % 4))
    (by have := Nat.mod_lt t.val (show 0 < 4 by decide); omega)
    (fun k => Blocks.xblk_apply (F := Ideal) m c t r k row ⟨128 * (t.val % 4) + k.val, by have := Nat.mod_lt t.val (show 0 < 4 by decide); have := k.isLt; omega⟩ hrow rfl)
    (fun k => Blocks.wblk_apply (F := Ideal) m c t k o ⟨128 * (t.val % 4) + k.val, by have := Nat.mod_lt t.val (show 0 < 4 by decide); have := k.isLt; omega⟩ rfl)
    hacc

/-- After point n the accumulator holds, at (r, o), the supremum over the columns below 128 (n % 4) + 128. -/
theorem acc_eq (c : Dev nD) : ∀ (n : ℕ) (h : n < cfg0.N) (r : Fin 64) (o : Fin 512) (row : Fin 1024),
    row.val = 64 * (n / 4) + r.val →
    (outsAt0 m c n h).2 (ix2 r o) = upto (term (X m c) (W m c) row o) (128 * (n % 4) + 128) := by
  intro n
  induction n with
  | zero =>
    intro h r o row hrow
    refine (congrFun (acc_first m c ⟨0, h⟩ rfl) (ix2 r o)).trans ?_
    exact step_at m c ⟨0, h⟩ (k0_pay1 (F := Ideal)) r o row hrow ((Pay.reset_apply _).trans (upto_zero _).symm)
  | succ n ih =>
    intro h r o row hrow
    by_cases h0 : (n + 1) % 4 = 0
    · refine (congrFun (acc_first m c ⟨n + 1, h⟩ h0) (ix2 r o)).trans ?_
      refine step_at m c ⟨n + 1, h⟩ (k0_pay1 (F := Ideal)) r o row hrow ((Pay.reset_apply _).trans ?_)
      show (⊥ : EReal) = upto _ (128 * ((n + 1) % 4))
      rw [h0]
      exact (upto_zero _).symm
    · refine (congrFun (acc_later m c ⟨n + 1, h⟩ h0) (ix2 r o)).trans ?_
      refine step_at m c ⟨n + 1, h⟩ _ r o row hrow ?_
      show (outsAt0 m c n _).2 (ix2 r o) = upto _ (128 * ((n + 1) % 4))
      rw [ih (Nat.lt_of_succ_lt h) r o row (by omega)]
      exact congrArg (upto _) (by omega)

/-- So after the last point of a run the output block holds the max-min composition's rows 64 (t / 4) .. -/
theorem out_eq (c : Dev nD) (t : Fin cfg0.N) (h1 : t.val % 4 = 3) (r : Fin 64) (o : Fin 512) (row : Fin 1024)
    (hrow : row.val = 64 * (t.val / 4) + r.val) :
    (outsAt0 m c t.val t.isLt).1 (ix2 r o) = maxmin (X m c) (W m c) (ix2 row o) := by
  rw [out_last m c t h1, acc_eq m c t.val t.isLt r o row hrow, maxmin_apply, ← upto_all]
  exact congrArg (upto _) (by omega)

end Cert.KernelIdeal.Acc

end
-- ==== Proof.Final.lean ====
/-
  From the output's blocks to the whole output array.

  The output's block index is (t / 4, 0): the four points of a run share one block, rows 64 (t / 4) .. of all 512
  columns, and only the last point of the run writes it back. What it writes is that block of the max-min
  composition of the two argument arrays. Row i of the output lies in the block of batch tile i / 64, written back
  at point 4 (i / 64) + 3, so the sixteen written blocks cover the array, which therefore ends holding the composition.
-/
import proofs.«152698_j80049600463150_1_alg».proof.Proof.Acc
import proofs.«152698_j80049600463150_1_alg».proof.Proof.Gen.KernelIdeal.Value

noncomputable section

namespace Cert.KernelIdeal.Final

open Cert.KernelIdeal Cert.KernelIdeal.Gen
open Idealize.ShloMosaic Idealize.ShloMosaic.TcCoe Idealize.ShloMosaic.ValueIdx Idealize.SL.Sem Cert.MaxMin
open Idealize.ShloMosaic.Pipeline (Dat)

variable (m : (ℓ : Loc nD τ sig) → Buf (Elt Ideal) ℓ) (ρ : Dev nD → PrngReg)

/-- What the last point of a run writes back is its block of the composition. -/
theorem flushed_eq (c : Dev nD) (t : Fin cfg0.N) (hf : (cfg0.win 2).flush t = true) :
    (dats m 0 c).flushed 2 t = ((cfg0.win 2).blk t).view.read (Elt Ideal) (maxmin (Acc.X m c) (Acc.W m c)) := by
  have h1 : t.val % 4 = 3 := (flush0_2 t).mp hf
  have hN : t.val < 64 := lt_of_lt_of_eq t.isLt (show cfg0.N = 64 from N_0)
  obtain ⟨-, -, -, -, e4, e5⟩ := Blocks.idx_facts t
  rw [Value.flushed2]
  funext y
  obtain ⟨r, o, rfl⟩ : ∃ (r : Fin 64) (o : Fin 512), y = ix2 r o := ⟨y 0, y 1, eq_ix2 (n0 := 64) (n1 := 512) y⟩
  rw [View.read_apply]
  show (outsAt0 m c t.val t.isLt).1 (ix2 r o) = maxmin (Acc.X m c) (Acc.W m c) (((cfg0.win 2).blk t).view.emb (ix2 r o))
  have hemb : ((cfg0.win 2).blk t).view.emb (ix2 r o)
      = ix2 (⟨64 * (t.val / 4) + r.val, by have := r.isLt; omega⟩ : Fin 1024) o :=
    funext fun a => Fin.ext (by
      match a with
      | ⟨0, _⟩ => show win0_2.index t (0 : Fin 2) * 64 + 1 * r.val = 64 * (t.val / 4) + r.val; omega
      | ⟨1, _⟩ => show win0_2.index t (1 : Fin 2) * 512 + 1 * o.val = o.val; omega)
  rw [hemb]
  exact Acc.out_eq m c t h1 r o _ rfl

/-- An index of the array is in point t's block iff each coordinate is in the block's range on its axis. -/
theorem mem_blk (t : Fin cfg0.N) (i : S1024x512.Idx) :
    i ∈ ((cfg0.win 2).blk t).view.set ↔ ∀ a : Fin 2, win0_2.index t a * S64x512.size a ≤ (i a).val
      ∧ (i a).val < win0_2.index t a * S64x512.size a + S64x512.size a := by
  show i ∈ ((View.whole main_v0).slice (win0_2.rect t)).set ↔ _
  rw [View.set_slice_whole, Rect.mem_set_unit]
  exact Iff.rfl

/-- Every index of the output lies in a block that is written back: row i in the block of the run of batch tile i / 64. -/
theorem cover (i : S1024x512.Idx) :
    ∃ t : Fin cfg0.N, (cfg0.win 2).flush t = true ∧ i ∈ ((cfg0.win 2).blk t).view.set := by
  have hi0 : (i 0).val < 1024 := (i 0).isLt
  have hi1 : (i 1).val < 512 := (i 1).isLt
  have hb : 4 * ((i 0).val / 64) + 3 < cfg0.N := by rw [show cfg0.N = 64 from N_0]; omega
  refine ⟨⟨4 * ((i 0).val / 64) + 3, hb⟩, (flush0_2 _).mpr (by show (4 * ((i 0).val / 64) + 3) % 4 = 3; omega), ?_⟩
  rw [mem_blk]
  obtain ⟨-, -, -, -, e4, e5⟩ := Blocks.idx_facts ⟨4 * ((i 0).val / 64) + 3, hb⟩
  have e4' : win0_2.index ⟨4 * ((i 0).val / 64) + 3, hb⟩ (0 : Fin 2) = (4 * ((i 0).val / 64) + 3) / 4 := e4
  intro a
  match a with
  | ⟨0, _⟩ =>
    show win0_2.index ⟨4 * ((i 0).val / 64) + 3, hb⟩ (0 : Fin 2) * 64 ≤ (i 0).val
      ∧ (i 0).val < win0_2.index ⟨4 * ((i 0).val / 64) + 3, hb⟩ (0 : Fin 2) * 64 + 64
    omega
  | ⟨1, _⟩ =>
    show win0_2.index ⟨4 * ((i 0).val / 64) + 3, hb⟩ (1 : Fin 2) * 512 ≤ (i 1).val
      ∧ (i 1).val < win0_2.index ⟨4 * ((i 0).val / 64) + 3, hb⟩ (1 : Fin 2) * 512 + 512
    omega

/-- The output array after the run is the max-min composition of the argument arrays. -/
theorem final (c : Dev nD) : (dats m 0 c).arrAt 2 cfg0.N = maxmin (Acc.X m c) (Acc.W m c) :=
  (dats m 0 c).arrAt_eq_of_cover 2 (maxmin (Acc.X m c) (Acc.W m c)) (flushed_eq m c) cover

/-- The run, read: every weakly fair execution ends with the result array at the composition and the arguments unchanged. -/
theorem run : θ_run defs (onTc (τ := τ) (main (F := Ideal))) ⟨m, fun _ => 0, ρ⟩ fun r => ∀ c : Dev nD,
      r.2.mem ((c : Thread nD τ).loc main_v0)
        = maxmin (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefValue.lean ====
/-
  The reference computes the max-min composition.

  Its result at (row, o) is a reduction with max, started at minus infinity, over the middle axis of the
  three-dimensional array whose entry at (row, i, o) is min (X row i) (W i o): the two broadcasts read X at (row, i)
  and W at (i, o). A reduction with a commutative, associative operation over one axis is a fold over that axis's
  coordinates, and a fold of max from the least element is the supremum.
-/
import proofs.«152698_j80049600463150_1_alg».proof.Proof.Gen.ReferenceIdeal.Read
import proofs.«152698_j80049600463150_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.MaxMin

theorem hred : S1024x512x512.Reduces [1] S1024x512 := by decide

/-- Over the result index (row, o), the source index with i on the reduced axis is (row, i, o). -/
theorem lift_eq (row : Fin 1024) (o : Fin 512) (i : Fin 512) :
    hred.lift (ix2 row o) i = ix3 row i o :=
  funext fun a => Fin.ext (by match a with | ⟨0, _⟩ => rfl | ⟨1, _⟩ => rfl | ⟨2, _⟩ => rfl)

/-- The array the reduction runs over holds min (X row i) (W i o) at (row, i, o). -/
theorem minimum_at (x0 : S1024x512.Idx → EReal) (x1 : S512x512.Idx → EReal) (row : Fin 1024) (o : Fin 512) (i : Fin 512) :
    val_main_v4 (F := Ideal) x0 x1 (ix3 row i o) = term x0 x1 row o i := by
  have e0 : idx_main_v0 (idx_main_v2 (ix3 row i o)) = ix2 row i :=
    funext fun a => Fin.ext (by match a with | ⟨0, _⟩ => rfl | ⟨1, _⟩ => rfl)
  have e1 : idx_main_v1 (idx_main_v3 (ix3 row i o)) = ix2 i o :=
    funext fun a => Fin.ext (by match a with | ⟨0, _⟩ => rfl | ⟨1, _⟩ => rfl)
  rw [val_main_v4_apply, val_main_v2_apply, val_main_v3_apply, val_main_v0_apply, val_main_v1_apply, e0, e1]
  rfl

/-- The reference's result is the max-min composition of its two arguments. -/
theorem result_eq (x0 : S1024x512.Idx → EReal) (x1 : S512x512.Idx → EReal) :
    val_main_v5 (F := Ideal) x0 x1 = maxmin x0 x1 := by
  funext j
  obtain ⟨row, o, rfl⟩ : ∃ (row : Fin 1024) (o : Fin 512), j = ix2 row o := ⟨j 0, j 1, eq_ix2 j⟩
  unfold val_main_v5
  rw [Host.reduce_eq_fold_single FloatOps.maximumf _ _ reducesTo_S1024x512x512_S1024x512_d1 hred h_S_ (ix2 row o)]
  have hf : (val_main_v4 (F := Ideal) x0 x1 ∘ hred.lift (ix2 row o)) = term x0 x1 row o :=
    funext fun (i : Fin 512) =>
      (congrArg (val_main_v4 (F := Ideal) x0 x1) (lift_eq row o i)).trans (minimum_at x0 x1 row o i)
  rw [hf, maxmin_apply]
  show Finset.fold max (Ideal.ofBits .f32 0xFF800000#32) _ _ = _
  rw [negInf_eq_bot]
  rfl

end Cert.ReferenceIdeal.RefValue

end
-- ==== Proof.lean ====
/-
  The certificate: the kernel's idealization and the reference compute the same array over the extended reals.

  The reference is out[b, o] = max over i of min (x[b, i], W[i, o]), one reduction over all 512 values of i started at
  minus infinity. The kernel tiles the batch in 16 tiles of 64 rows and the reduction in 4 chunks of 128 columns: an
  accumulator is set to minus infinity at the first chunk of a tile, takes the max with each chunk's own max-min, and
  is written out after the last chunk. Both are the supremum over i of min (x[b, i], W[i, o]): a supremum over 512
  indices is the max of the suprema over four consecutive runs of 128 of them, and minus infinity is the least
  extended real. The law is the lattice's alone, so the precondition (finite inputs) is never opened.

  The three frames are the generated runs. The kernel's idealization is the kernel's own text read over the extended
  reals, nothing rewritten, so that claim is trivially true. For the value claim: each grid point's stores
  are read back as values (Pieces), the step is read entry by entry (Payload), the blocks are placed in the arrays
  (Blocks), the accumulator after each point is found by induction over the points (Acc), the written blocks are
  assembled into the whole output (Final), and the reference's reduction is read as the same supremum (RefValue).
-/
import proofs.«152698_j80049600463150_1_alg».proof.Defs
import proofs.«152698_j80049600463150_1_alg».proof.Proof.Gen.Kernel
import proofs.«152698_j80049600463150_1_alg».proof.Proof.Gen.Kernel.Skeleton
import proofs.«152698_j80049600463150_1_alg».proof.Proof.Gen.Kernel.Launch
import proofs.«152698_j80049600463150_1_alg».proof.Proof.Gen.Kernel.Points
import proofs.«152698_j80049600463150_1_alg».proof.Proof.Gen.Kernel.Frame
import proofs.«152698_j80049600463150_1_alg».proof.Proof.Gen.KernelIdeal
import proofs.«152698_j80049600463150_1_alg».proof.Proof.Gen.KernelIdeal.Skeleton
import proofs.«152698_j80049600463150_1_alg».proof.Proof.Gen.KernelIdeal.Launch
import proofs.«152698_j80049600463150_1_alg».proof.Proof.Gen.KernelIdeal.Points
import proofs.«152698_j80049600463150_1_alg».proof.Proof.Gen.KernelIdeal.Frame
import proofs.«152698_j80049600463150_1_alg».proof.Proof.Gen.ReferenceIdeal
import proofs.«152698_j80049600463150_1_alg».proof.Proof.Gen.Pre_finite_inputs
import proofs.«152698_j80049600463150_1_alg».proof.Proof.Gen.KernelIdeal.Value
import proofs.«152698_j80049600463150_1_alg».proof.Proof.Gen.ReferenceIdeal.Run
import proofs.«152698_j80049600463150_1_alg».proof.Proof.Gen.ReferenceIdeal.Read
import proofs.«152698_j80049600463150_1_alg».proof.Proof.Final
import proofs.«152698_j80049600463150_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the max-min composition of the argument arrays, and these agree. -/
theorem algebraic : Cert.algebraic_KernelIdeal_ReferenceIdeal := by
  intro m ρ m' ρ' _ hagree
  refine ⟨fun c => Cert.MaxMin.maxmin
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
